-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S16x64 : Shape := ⟨2, ![16, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S64x8192 .f32) (main_arg1 : FVec F S16x64 .f32) (main_arg2 : FVec F S64 .f32) (main_arg3 : FVec F S64x8 .f32) (main_arg4 : FVec F S8 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg3
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg4 main_v13 main_v16
-- ==== Kernel.lean ====
abbrev S64x8192 : Shape := ⟨2, ![64, 8192]⟩
abbrev S16x64 : Shape := ⟨2, ![16, 64]⟩
abbrev S64 : Shape := ⟨1, ![64]⟩
abbrev S64x8 : Shape := ⟨2, ![64, 8]⟩
abbrev S8 : Shape := ⟨1, ![8]⟩
abbrev S_ : Shape := ⟨0, ![]⟩
abbrev S64x8207 : Shape := ⟨2, ![64, 8207]⟩
abbrev S1x64 : Shape := ⟨2, ![1, 64]⟩
abbrev S1x8 : Shape := ⟨2, ![1, 8]⟩
abbrev S64x8177x8 : Shape := ⟨3, ![64, 8177, 8]⟩
abbrev S64x256x8 : Shape := ⟨3, ![64, 256, 8]⟩
abbrev S64x271 : Shape := ⟨2, ![64, 271]⟩
abbrev S64x256 : Shape := ⟨2, ![64, 256]⟩
abbrev S64x4096 : Shape := ⟨2, ![64, 4096]⟩
abbrev S64x16x256 : Shape := ⟨3, ![64, 16, 256]⟩
abbrev S64x256x16 : Shape := ⟨3, ![64, 256, 16]⟩
abbrev S16384x16 : Shape := ⟨2, ![16384, 16]⟩
abbrev S16384x64 : Shape := ⟨2, ![16384, 64]⟩
abbrev S16384x8 : Shape := ⟨2, ![16384, 8]⟩
abbrev S64x8x8177 : Shape := ⟨3, ![64, 8, 8177]⟩

abbrev nBuf : Space → Nat
  | .hbm => 12
  | .vmem => 7
  | .smem => 0
  | _ => 0

abbrev bufTy : (tb : Table) → Fin (tcTables nBuf tb) → BufTy
  | .hbm, ⟨0, _⟩ => ⟨S64x8192, .f32⟩
  | .hbm, ⟨1, _⟩ => ⟨S16x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S_, .i32⟩
  | .hbm, ⟨6, _⟩ => ⟨S_, .f32⟩
  | .hbm, ⟨7, _⟩ => ⟨S64x8207, .f32⟩
  | .hbm, ⟨8, _⟩ => ⟨S1x64, .f32⟩
  | .hbm, ⟨9, _⟩ => ⟨S1x8, .f32⟩
  | .hbm, ⟨10, _⟩ => ⟨S64x8177x8, .f32⟩
  | .hbm, ⟨11, _⟩ => ⟨S64x8x8177, .f32⟩
  | .local _ .vmem, ⟨0, _⟩ => ⟨S64x8207, .f32⟩
  | .local _ .vmem, ⟨1, _⟩ => ⟨S16x64, .f32⟩
  | .local _ .vmem, ⟨2, _⟩ => ⟨S1x64, .f32⟩
  | .local _ .vmem, ⟨3, _⟩ => ⟨S64x8, .f32⟩
  | .local _ .vmem, ⟨4, _⟩ => ⟨S1x8, .f32⟩
  | .local _ .vmem, ⟨5, _⟩ => ⟨S64x256x8, .f32⟩
  | .local _ .vmem, ⟨6, _⟩ => ⟨S64x256x8, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0 : Index := 0#32
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S64x8207 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x256x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S64x8192_S64x8207_000_0150 : S64x8192.Pads (![0, 0] : Fin 2 → Nat) ![0, 15] ![0, 0] S64x8207
  h_S_ : 0 < S_.numel
  shapeCasts_S64_S1x64 : S64.ShapeCasts S1x64
  shapeCasts_S8_S1x8 : S8.ShapeCasts S1x8
  h_S64x271 : 0 < S64x271.numel
  shapeCasts_S64x271_S64x271 : S64x271.ShapeCasts S64x271
  slices_S64x271_o0_0_S64x256 : S64x271.Slices ![0, 0] S64x256
  slices_S64x271_o0_1_S64x256 : S64x271.Slices ![0, 1] S64x256
  slices_S64x271_o0_2_S64x256 : S64x271.Slices ![0, 2] S64x256
  slices_S64x271_o0_3_S64x256 : S64x271.Slices ![0, 3] S64x256
  slices_S64x271_o0_4_S64x256 : S64x271.Slices ![0, 4] S64x256
  slices_S64x271_o0_5_S64x256 : S64x271.Slices ![0, 5] S64x256
  slices_S64x271_o0_6_S64x256 : S64x271.Slices ![0, 6] S64x256
  slices_S64x271_o0_7_S64x256 : S64x271.Slices ![0, 7] S64x256
  slices_S64x271_o0_8_S64x256 : S64x271.Slices ![0, 8] S64x256
  slices_S64x271_o0_9_S64x256 : S64x271.Slices ![0, 9] S64x256
  slices_S64x271_o0_10_S64x256 : S64x271.Slices ![0, 10] S64x256
  slices_S64x271_o0_11_S64x256 : S64x271.Slices ![0, 11] S64x256
  slices_S64x271_o0_12_S64x256 : S64x271.Slices ![0, 12] S64x256
  slices_S64x271_o0_13_S64x256 : S64x271.Slices ![0, 13] S64x256
  slices_S64x271_o0_14_S64x256 : S64x271.Slices ![0, 14] S64x256
  slices_S64x271_o0_15_S64x256 : S64x271.Slices ![0, 15] S64x256
  concatenates_S64x256_S64x256_S64x256_S64x256_S64x256_S64x256_S64x256_S64x256_S64x256_S64x256_S64x256_S64x256_S64x256_S64x256_S64x256_S64x256_S64x4096_d1 : Shape.Concatenates [S64x256, S64x256, S64x256, S64x256, S64x256, S64x256, S64x256, S64x256, S64x256, S64x256, S64x256, S64x256, S64x256, S64x256, S64x256, S64x256] S64x4096 1
  shapeCasts_S64x4096_S64x16x256 : S64x4096.ShapeCasts S64x16x256
  transposes_S64x16x256_p0_2_1_S64x256x16 : S64x16x256.Transposes [0, 2, 1] S64x256x16
  shapeCasts_S64x256x16_S16384x16 : S64x256x16.ShapeCasts S16384x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S16384x8 : S1x8.Broadcasts S16384x8
  shapeCasts_S16384x8_S64x256x8 : S16384x8.ShapeCasts S64x256x8
  inb_S64x256x8_S64x256x8_0_0_0 : ∀ a, (![0, 0, 0] : Fin 3 → Nat) a + S64x256x8.size a ≤ S64x256x8.size a
  h_S64x256x8 : 0 < S64x256x8.numel
  shapeCasts_S64x8177x8_S64x8x8177 : S64x8177x8.ShapeCasts S64x8x8177
  dot_S16384x16_S16x64_S16384x64_1_0_0_1_n_n_wf : DotDims.WF S16384x16 S16x64 S16384x64 [1] [0] [0] [1] [] []
  dot_S16384x64_S64x8_S16384x8_1_0_0_1_n_n_wf : DotDims.WF S16384x64 S64x8 S16384x8 [1] [0] [0] [1] [] []
  hrank0 : 0 < grid0.rank
  k0_mult1_dvd : ∀ i : grid0.Coords, 256 ∣ (k0_mult1 i).toNat
  k0_off1_inb : ∀ i : grid0.Coords, ∀ a, (k0_off1 i) a + S64x271.size a ≤ S64x8207.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8207.size a ≤ S64x8207.size a
  hwx0_0 : ∀ i : grid0.Coords, EltTy.bits .f32 = 32 ∨ (Rect.block (s := S64x8207) S64x8207.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8.size a ≤ S64x8.size a
  hwx0_3 : ∀ i : grid0.Coords, EltTy.bits .f32 = 32 ∨ (Rect.block (s := S64x8) S64x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S64x256x8.size a < S64x8177x8.size a
  hwx0_5 : ∀ i : grid0.Coords, EltTy.bits .f32 = 32 ∨ (Rect.unit (s := S64x8177x8) (fun a => cc0_transform_5 i a * S64x256x8.size a) (fun a => (Pipeline.Clip.of (cc0_transform_5 i a) (S64x256x8.size a) (S64x8177x8.size a)).extent (S64x256x8.size a)) fun a => Pipeline.Clip.inb (Pipeline.Clip.ok_of (hstart0_5 i a))).WholeWords (EltTy.packing .f32)
  hwxs0_5 : ∀ i : grid0.Coords, EltTy.bits .f32 = 32 ∨ (Rect.unit (s := S64x256x8) (fun _ => 0) (fun a => (Pipeline.Clip.of (cc0_transform_5 i a) (S64x256x8.size a) (S64x8177x8.size a)).extent (S64x256x8.size a)) fun a => (Nat.zero_add _).trans_le (Pipeline.Clip.extent_le (Pipeline.Clip.ok_of (hstart0_5 i a)))).WholeWords (EltTy.packing .f32)

variable [Facts₀]

def dot_S16384x16_S16x64_S16384x64_1_0_0_1_n_n : DotDims S16384x16 S16x64 S16384x64 where
  lhsContracting := [1]
  rhsContracting := [0]
  lhsNonContracting := [0]
  rhsNonContracting := [1]
  lhsBatch := []
  rhsBatch := []
  wf := dot_S16384x16_S16x64_S16384x64_1_0_0_1_n_n_wf
def dot_S16384x64_S64x8_S16384x8_1_0_0_1_n_n : DotDims S16384x64 S64x8 S16384x8 where
  lhsContracting := [1]
  rhsContracting := [0]
  lhsNonContracting := [0]
  rhsNonContracting := [1]
  lhsBatch := []
  rhsBatch := []
  wf := dot_S16384x64_S64x8_S16384x8_1_0_0_1_n_n_wf

abbrev win0_0 : Pipeline.Window sig grid0 :=
  Pipeline.Window.ofSpec (Memref.whole main_v0) S64x8207.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v3) S64x256x8.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x8192 : Shape := ⟨2, ![64, 8192]⟩
abbrev S16x64 : Shape := ⟨2, ![16, 64]⟩
abbrev S64 : Shape := ⟨1, ![64]⟩
abbrev S64x8 : Shape := ⟨2, ![64, 8]⟩
abbrev S8 : Shape := ⟨1, ![8]⟩
abbrev S8177 : Shape := ⟨1, ![8177]⟩
abbrev S8177x1 : Shape := ⟨2, ![8177, 1]⟩
abbrev S16 : Shape := ⟨1, ![16]⟩
abbrev S1x16 : Shape := ⟨2, ![1, 16]⟩
abbrev S8177x16 : Shape := ⟨2, ![8177, 16]⟩
abbrev S_ : Shape := ⟨0, ![]⟩
abbrev S8177x16x1 : Shape := ⟨3, ![8177, 16, 1]⟩
abbrev S64x8177x16 : Shape := ⟨3, ![64, 8177, 16]⟩
abbrev S523328x16 : Shape := ⟨2, ![523328, 16]⟩
abbrev S523328x64 : Shape := ⟨2, ![523328, 64]⟩
abbrev S1x64 : Shape := ⟨2, ![1, 64]⟩
abbrev S523328x8 : Shape := ⟨2, ![523328, 8]⟩
abbrev S1x8 : Shape := ⟨2, ![1, 8]⟩
abbrev S64x8x8177 : Shape := ⟨3, ![64, 8, 8177]⟩

abbrev nBuf : Space → Nat
  | .hbm => 32
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S16x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S8177, .i32⟩
  | .hbm, ⟨6, _⟩ => ⟨S8177x1, .i32⟩
  | .hbm, ⟨7, _⟩ => ⟨S16, .i32⟩
  | .hbm, ⟨8, _⟩ => ⟨S1x16, .i32⟩
  | .hbm, ⟨9, _⟩ => ⟨S8177x16, .i32⟩
  | .hbm, ⟨10, _⟩ => ⟨S8177x16, .i32⟩
  | .hbm, ⟨11, _⟩ => ⟨S8177x16, .i32⟩
  | .hbm, ⟨12, _⟩ => ⟨S_, .i32⟩
  | .hbm, ⟨13, _⟩ => ⟨S8177x16, .i32⟩
  | .hbm, ⟨14, _⟩ => ⟨S8177x16, .i1⟩
  | .hbm, ⟨15, _⟩ => ⟨S_, .i32⟩
  | .hbm, ⟨16, _⟩ => ⟨S8177x16, .i32⟩
  | .hbm, ⟨17, _⟩ => ⟨S8177x16, .i32⟩
  | .hbm, ⟨18, _⟩ => ⟨S8177x16, .i32⟩
  | .hbm, ⟨19, _⟩ => ⟨S8177x16x1, .i32⟩
  | .hbm, ⟨20, _⟩ => ⟨S64x8177x16, .f32⟩
  | .hbm, ⟨21, _⟩ => ⟨S523328x16, .f32⟩
  | .hbm, ⟨22, _⟩ => ⟨S523328x64, .f32⟩
  | .hbm, ⟨23, _⟩ => ⟨S1x64, .f32⟩
  | .hbm, ⟨24, _⟩ => ⟨S523328x64, .f32⟩
  | .hbm, ⟨25, _⟩ => ⟨S523328x64, .f32⟩
  | .hbm, ⟨26, _⟩ => ⟨S523328x64, .f32⟩
  | .hbm, ⟨27, _⟩ => ⟨S523328x8, .f32⟩
  | .hbm, ⟨28, _⟩ => ⟨S1x8, .f32⟩
  | .hbm, ⟨29, _⟩ => ⟨S523328x8, .f32⟩
  | .hbm, ⟨30, _⟩ => ⟨S523328x8, .f32⟩
  | .hbm, ⟨31, _⟩ => ⟨S64x8x8177, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  bcast_S8177_S8177x1_0 : S8177.BroadcastsInDim S8177x1 (![0] : Fin 1 → Fin S8177x1.rank)
  bcast_S16_S1x16_1 : S16.BroadcastsInDim S1x16 (![1] : Fin 1 → Fin S1x16.rank)
  bcast_S8177x1_S8177x16_0_1 : S8177x1.BroadcastsInDim S8177x16 (![0, 1] : Fin 2 → Fin S8177x16.rank)
  bcast_S1x16_S8177x16_0_1 : S1x16.BroadcastsInDim S8177x16 (![0, 1] : Fin 2 → Fin S8177x16.rank)
  bcast_S_S8177x16 : S_.BroadcastsInDim S8177x16 (![] : Fin 0 → Fin S8177x16.rank)
  bcast_S8177x16_S8177x16x1_0_1 : S8177x16.BroadcastsInDim S8177x16x1 (![0, 1] : Fin 2 → Fin S8177x16x1.rank)
  shapeCasts_S64x8177x16_S523328x16 : S64x8177x16.ShapeCasts S523328x16
  bcast_S64_S1x64_1 : S64.BroadcastsInDim S1x64 (![1] : Fin 1 → Fin S1x64.rank)
  bcast_S1x64_S523328x64_0_1 : S1x64.BroadcastsInDim S523328x64 (![0, 1] : Fin 2 → Fin S523328x64.rank)
  bcast_S8_S1x8_1 : S8.BroadcastsInDim S1x8 (![1] : Fin 1 → Fin S1x8.rank)
  bcast_S1x8_S523328x8_0_1 : S1x8.BroadcastsInDim S523328x8 (![0, 1] : Fin 2 → Fin S523328x8.rank)
  shapeCasts_S523328x8_S64x8x8177 : S523328x8.ShapeCasts S64x8x8177
  gather_S64x8192_S8177x16x1_S64x8177x16_0_1_n_n_1_2_641_wf : GatherDims.WF S64x8192 S8177x16x1 S64x8177x16 [0] [1] [] [1] [] 2 ![64, 1]
  dot_S523328x16_S16x64_S523328x64_1_0_0_1_n_n_wf : DotDims.WF S523328x16 S16x64 S523328x64 [1] [0] [0] [1] [] []
  dot_S523328x64_S64x8_S523328x8_1_0_0_1_n_n_wf : DotDims.WF S523328x64 S64x8 S523328x8 [1] [0] [0] [1] [] []

variable [Facts₀]

def gather_S64x8192_S8177x16x1_S64x8177x16_0_1_n_n_1_2_641 : GatherDims S64x8192 S8177x16x1 S64x8177x16 where
  offsetDims := [0]
  collapsedSliceDims := [1]
  operandBatchingDims := []
  startIndicesBatchingDims := []
  startIndexMap := [1]
  indexVectorDim := 2
  sliceSizes := ![64, 1]
  wf := gather_S64x8192_S8177x16x1_S64x8177x16_0_1_n_n_1_2_641_wf
def dot_S523328x16_S16x64_S523328x64_1_0_0_1_n_n : DotDims S523328x16 S16x64 S523328x64 where
  lhsContracting := [1]
  rhsContracting := [0]
  lhsNonContracting := [0]
  rhsNonContracting := [1]
  lhsBatch := []
  rhsBatch := []
  wf := dot_S523328x16_S16x64_S523328x64_1_0_0_1_n_n_wf
def dot_S523328x64_S64x8_S523328x8_1_0_0_1_n_n : DotDims S523328x64 S64x8 S523328x8 where
  lhsContracting := [1]
  rhsContracting := [0]
  lhsNonContracting := [0]
  rhsNonContracting := [1]
  lhsBatch := []
  rhsBatch := []
  wf := dot_S523328x64_S64x8_S523328x8_1_0_0_1_n_n_wf

class Facts : Prop extends Facts₀ where

variable [Facts]
-- ==== Proof.BodyValue.lean ====
/-
  What one grid step of the kernel leaves in the output's staging buffer, as a value.

  At grid coordinate `i` the body loads the 271 columns of the padded signal that start at column `256·i`
  (`slab`), the two weight matrices and the two bias rows whole, and stores one [64, 256, 8] block: the pure term
  `k0_pay1` of those five loaded values. The run of the body found that single covering store; here it is read back
  as the value it stored.
-/
import proofs.«155559_j34565896798381_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.BodyValue

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The 271 columns of the padded signal the body loads at grid coordinate `i`: all 64 rows, columns
    `256·i … 256·i + 270`. -/
def slab (i : grid0.Coords) (x0 : Vec F S64x8207 .f32) : Vec F S64x271 .f32 :=
  fun y => x0 ((Rect.unit (s := S64x8207) (k0_off1 i) S64x271.size (k0_off1_inb i)).emb y)

/-- The one store of the body writes the whole [64, 256, 8] block with the payload of the five loads; the loads of
    the weights and biases read their buffers whole, the load of the signal reads the slab. -/
theorem out_eq (c : Dev nD) (i : grid0.Coords) (arg1 : Memref sig .tc .vmem S64x8207 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S64x8 .f32) (harg4 : arg4.IsWhole) (arg5 : Memref sig .tc .vmem S1x8 .f32) (harg5 : arg5.IsWhole) (arg6 : Memref sig .tc .vmem S64x256x8 .f32) (harg6 : arg6.IsWhole)
    (x0 : Vec F S64x8207 .f32) (x1 : Vec F S16x64 .f32) (x2 : Vec F S1x64 .f32) (x3 : Vec F S64x8 .f32) (x4 : Vec F S1x8 .f32) :
    out0_A_5 c i arg1 harg1 arg2 harg2 arg3 harg3 arg4 harg4 arg5 harg5 arg6 harg6 x0 x1 x2 x3 x4 = k0_pay1 (slab i x0) x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero hz3]
  simp only [View.readAt_eq_ld, harg1.read_unread, harg2.read_unread, harg3.read_unread, harg4.read_unread, harg5.read_unread, View.ld_unit_zero (S := S16x64) hz2, View.ld_unit_zero (S := S1x64) hz2, View.ld_unit_zero (S := S64x8) hz2, View.ld_unit_zero (S := S1x8) hz2]
  rfl

end Cert.KernelIdeal.BodyValue

end
-- ==== Proof.Inputs.lean ====
/-
  What the kernel's region finds in its input windows.

  Before the region the host pads the signal [64, 8192] with fifteen columns on the right (columns below 8192 are
  the signal's own), and reshapes the two bias vectors to one-row matrices. Every input window's one block is its
  whole array, so at every grid point the staged block is the array as the region finds it. The printed index maps
  are decided once over the 32 grid points.
-/
import proofs.«155559_j34565896798381_2_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.ValueLayout
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Inputs

open Cert.KernelIdeal Cert.KernelIdeal.Gen

variable {F : FTy → Type} [FloatOps F]
variable (m : (ℓ : Loc nD τ sig) → Buf (Elt F) ℓ)

/-! ## What the host wrote before the region -/

/-- The padded signal: the signal with fifteen columns of the padding value appended to every row. -/
theorem V_v0 (c : Dev nD) : (V m c main_v0 : S64x8207.Idx → Elt F .f32) =
    pad S64x8207 ![0, 0] ![0, 15] ![0, 0] (m ((c : Thread nD τ).loc main_arg0)) (sitofp (F := F) .f32 (constantI S_ 32 0#32)) pads_S64x8192_S64x8207_000_0150 h_S_ := by
  dsimp only [V, V0]
  simp only [hostOps0, hostOps0_1, hostOps0_2, List.flatten_cons, List.flatten_nil, List.append_nil, List.cons_append, List.nil_append]
  after_results; rfl

/-- The first bias as a one-row matrix. -/
theorem V_v1 (c : Dev nD) : (V m c main_v1 : S1x64.Idx → Elt F .f32) = shapeCast S1x64 (m ((c : Thread nD τ).loc main_arg2)) shapeCasts_S64_S1x64 := by
  dsimp only [V, V0]
  simp only [hostOps0, hostOps0_1, hostOps0_2, List.flatten_cons, List.flatten_nil, List.append_nil, List.cons_append, List.nil_append]
  after_results; rfl

/-- The second bias as a one-row matrix. -/
theorem V_v2 (c : Dev nD) : (V m c main_v2 : S1x8.Idx → Elt F .f32) = shapeCast S1x8 (m ((c : Thread nD τ).loc main_arg4)) shapeCasts_S8_S1x8 := by
  dsimp only [V, V0]
  simp only [hostOps0, hostOps0_1, hostOps0_2, List.flatten_cons, List.flatten_nil, List.append_nil, List.cons_append, List.nil_append]
  after_results; rfl

/-- A column of the padded signal below 8192 is the signal's own column. -/
theorem V_v0_apply (c : Dev nD) (b : Fin 64) (n : Fin 8207) (hn : n.val < 8192) :
    (V m c main_v0 : S64x8207.Idx → Elt F .f32) (ix2 b n) = m ((c : Thread nD τ).loc main_arg0) (ix2 b (⟨n.val, hn⟩ : Fin 8192)) := by
  rw [V_v0]
  exact pad_apply_of_inside _ _ _ _ _ pads_S64x8192_S64x8207_000_0150 h_S_ (ix2 b n) (ix2 b (⟨n.val, hn⟩ : Fin 8192))
    (fun a => match a with
      | ⟨0, _⟩ => by show b.val = 0 + b.val * (0 + 1); omega
      | ⟨1, _⟩ => by show n.val = 0 + n.val * (0 + 1); omega)

/-- Entry `h` of the one-row first bias is entry `h` of the bias. -/
theorem V_v1_apply (c : Dev nD) (h : Fin 64) :
    (V m c main_v1 : S1x64.Idx → Elt F .f32) (ix2 (0 : Fin 1) h) = m ((c : Thread nD τ).loc main_arg2) (ix1 h) := by
  rw [V_v1]
  exact shapeCast_a_1a_apply _ shapeCasts_S64_S1x64 (0 : Fin 1) h

/-- Entry `k` of the one-row second bias is entry `k` of the bias. -/
theorem V_v2_apply (c : Dev nD) (k : Fin 8) :
    (V m c main_v2 : S1x8.Idx → Elt F .f32) (ix2 (0 : Fin 1) k) = m ((c : Thread nD τ).loc main_arg4) (ix1 k) := by
  rw [V_v2]
  exact shapeCast_a_1a_apply _ shapeCasts_S8_S1x8 (0 : Fin 1) k

/-! ## The index maps, decided once over the 32 grid points -/

/-- Every input window sits at block index zero at every point (its one block is its whole array); the output's
    block index is the point on the window axis; the body's load starts at column `256·t`; and the output's block
    keeps, of its 256 window positions, those below 8177: all of them but at the last point, where 241 remain. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0
    ∧ k0_off1 (grid0.coords t) (0 : Fin 2) = 0 ∧ k0_off1 (grid0.coords t) (1 : Fin 2) = 256 * t.val
    ∧ win0_5.xsize (grid0.coords t) (0 : Fin 3) = 64 ∧ win0_5.xsize (grid0.coords t) (1 : Fin 3) = min 256 (8177 - 256 * t.val)
    ∧ win0_5.xsize (grid0.coords t) (2 : Fin 3) = 8 :=
  (by decide +kernel : ∀ t : Fin grid0.N, _)

/-! ## The input windows' blocks are their whole arrays -/

theorem iblk0 (c : Dev nD) (t : Fin cfg0.N) : (iblk m c 0 t : Vec F S64x8207 .f32) = V m c main_v0 := by
  obtain ⟨e0, e1, -⟩ := idx_facts t
  funext y
  unfold iblk
  rw [View.read_apply]
  show V m c main_v0 (((cfg0.win 0).blk t).view.emb y) = V m c main_v0 y
  refine congrArg (V m c main_v0) (funext fun a => Fin.ext ?_)
  match a with
  | ⟨0, _⟩ => show win0_0.index t (0 : Fin 2) * 64 + 1 * (y 0).val = (y 0).val; rw [e0]; omega
  | ⟨1, _⟩ => show win0_0.index t (1 : Fin 2) * 8207 + 1 * (y 1).val = (y 1).val; rw [e1]; omega

theorem iblk1 (c : Dev nD) (t : Fin cfg0.N) : (iblk m c 1 t : Vec F S16x64 .f32) = m ((c : Thread nD τ).loc main_arg1) := by
  obtain ⟨-, -, e0, e1, -⟩ := idx_facts t
  funext y
  unfold iblk
  rw [View.read_apply]
  show V m c main_arg1 (((cfg0.win 1).blk t).view.emb y) = m ((c : Thread nD τ).loc main_arg1) y
  rw [V_main_arg1]
  refine congrArg (m ((c : Thread nD τ).loc main_arg1)) (funext fun a => Fin.ext ?_)
  match a with
  | ⟨0, _⟩ => show win0_1.index t (0 : Fin 2) * 16 + 1 * (y 0).val = (y 0).val; rw [e0]; omega
  | ⟨1, _⟩ => show win0_1.index t (1 : Fin 2) * 64 + 1 * (y 1).val = (y 1).val; rw [e1]; omega

theorem iblk2 (c : Dev nD) (t : Fin cfg0.N) : (iblk m c 2 t : Vec F S1x64 .f32) = V m c main_v1 := by
  obtain ⟨-, -, -, -, e0, e1, -⟩ := idx_facts t
  funext y
  unfold iblk
  rw [View.read_apply]
  show V m c main_v1 (((cfg0.win 2).blk t).view.emb y) = V m c main_v1 y
  refine congrArg (V m c main_v1) (funext fun a => Fin.ext ?_)
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

theorem iblk3 (c : Dev nD) (t : Fin cfg0.N) : (iblk m c 3 t : Vec F S64x8 .f32) = m ((c : Thread nD τ).loc main_arg3) := by
  obtain ⟨-, -, -, -, -, -, e0, e1, -⟩ := idx_facts t
  funext y
  unfold iblk
  rw [View.read_apply]
  show V m c main_arg3 (((cfg0.win 3).blk t).view.emb y) = m ((c : Thread nD τ).loc main_arg3) y
  rw [V_main_arg3]
  refine congrArg (m ((c : Thread nD τ).loc main_arg3)) (funext fun a => Fin.ext ?_)
  match a with
  | ⟨0, _⟩ => show win0_3.index t (0 : Fin 2) * 64 + 1 * (y 0).val = (y 0).val; rw [e0]; omega
  | ⟨1, _⟩ => show win0_3.index t (1 : Fin 2) * 8 + 1 * (y 1).val = (y 1).val; rw [e1]; omega

theorem iblk4 (c : Dev nD) (t : Fin cfg0.N) : (iblk m c 4 t : Vec F S1x8 .f32) = V m c main_v2 := by
  obtain ⟨-, -, -, -, -, -, -, -, e0, e1, -⟩ := idx_facts t
  funext y
  unfold iblk
  rw [View.read_apply]
  show V m c main_v2 (((cfg0.win 4).blk t).view.emb y) = V m c main_v2 y
  refine congrArg (V m c main_v2) (funext fun a => Fin.ext ?_)
  match a with
  | ⟨0, _⟩ => show win0_4.index t (0 : Fin 2) * 1 + 1 * (y 0).val = (y 0).val; rw [e0]; omega
  | ⟨1, _⟩ => show win0_4.index t (1 : Fin 2) * 8 + 1 * (y 1).val = (y 1).val; rw [e1]; omega

end Cert.KernelIdeal.Inputs

end
-- ==== Proof.Spec.lean ====
/-
  The function both programs compute, stated once over the argument arrays.

  A window of sixteen consecutive samples of one signal row, `win j = x[b, w + j]`, goes through a two-layer
  perceptron: `mlp win c = Σ_h tanh (Σ_j win j · W1[j, h] + b1[h]) · W2[h, c] + b2[c]` on the extended reals.
  `rows` lays these out as the array [64, 8177, 8] indexed (signal row, window start, output channel); the
  result of both programs is that array's row-major contents re-read in the shape [64, 8, 8177] (`result`).
  Every sum here is a finite sum of products in the commutative monoid of the extended reals: nothing in the
  comparison of the two programs needs the inputs to be finite.
-/
import Idealize.ShloMosaic.PureOps.Ideal
import Idealize.ShloMosaic.Lib.ValueIdx

noncomputable section

open scoped BigOperators

namespace Cert.ConvMlp

open Idealize.ShloMosaic Idealize.ShloMosaic.ValueIdx

/-- The perceptron on one window of sixteen samples, at output channel `c`. -/
def mlp (win : Fin 16 → EReal) (W1 : (⟨2, ![16, 64]⟩ : Shape).Idx → EReal) (b1 : Fin 64 → EReal)
    (W2 : (⟨2, ![64, 8]⟩ : Shape).Idx → EReal) (b2 : Fin 8 → EReal) (c : Fin 8) : EReal :=
  (∑ h : Fin 64, Ideal.tanh ((∑ j : Fin 16, win j * W1 (ix2 j h)) + b1 h) * W2 (ix2 h c)) + b2 c

/-- The window of row `b` that starts at sample `w`: samples `w … w + 15`, all inside the row since `w ≤ 8176`. -/
def window (x : (⟨2, ![64, 8192]⟩ : Shape).Idx → EReal) (b : Fin 64) (w : Fin 8177) : Fin 16 → EReal :=
  fun j => x (ix2 b (⟨w.val + j.val, by omega⟩ : Fin 8192))

/-- One element of the result: the perceptron on window `w` of row `b`, channel `c`. -/
def elt (x : (⟨2, ![64, 8192]⟩ : Shape).Idx → EReal) (W1 : (⟨2, ![16, 64]⟩ : Shape).Idx → EReal)
    (b1 : (⟨1, ![64]⟩ : Shape).Idx → EReal) (W2 : (⟨2, ![64, 8]⟩ : Shape).Idx → EReal)
    (b2 : (⟨1, ![8]⟩ : Shape).Idx → EReal) (b : Fin 64) (w : Fin 8177) (c : Fin 8) : EReal :=
  mlp (window x b w) W1 (fun h => b1 (ix1 h)) W2 (fun c => b2 (ix1 c)) c

/-- The array [64, 8177, 8] of all of them. -/
def rows (x : (⟨2, ![64, 8192]⟩ : Shape).Idx → EReal) (W1 : (⟨2, ![16, 64]⟩ : Shape).Idx → EReal)
    (b1 : (⟨1, ![64]⟩ : Shape).Idx → EReal) (W2 : (⟨2, ![64, 8]⟩ : Shape).Idx → EReal)
    (b2 : (⟨1, ![8]⟩ : Shape).Idx → EReal) : (⟨3, ![64, 8177, 8]⟩ : Shape).Idx → EReal :=
  fun i => elt x W1 b1 W2 b2 (i 0) (i 1) (i 2)

theorem rows_apply (x : (⟨2, ![64, 8192]⟩ : Shape).Idx → EReal) (W1 : (⟨2, ![16, 64]⟩ : Shape).Idx → EReal)
    (b1 : (⟨1, ![64]⟩ : Shape).Idx → EReal) (W2 : (⟨2, ![64, 8]⟩ : Shape).Idx → EReal)
    (b2 : (⟨1, ![8]⟩ : Shape).Idx → EReal) (b : Fin 64) (w : Fin 8177) (c : Fin 8) :
    rows x W1 b1 W2 b2 (ix3 b w c) = elt x W1 b1 W2 b2 b w c := rfl

/-- The two shapes hold the same number of elements. -/
theorem casts : (⟨3, ![64, 8177, 8]⟩ : Shape).ShapeCasts ⟨3, ![64, 8, 8177]⟩ := by decide

/-- The result of both programs: `rows` re-read, in row-major order, in the shape [64, 8, 8177]. -/
def result (x : (⟨2, ![64, 8192]⟩ : Shape).Idx → EReal) (W1 : (⟨2, ![16, 64]⟩ : Shape).Idx → EReal)
    (b1 : (⟨1, ![64]⟩ : Shape).Idx → EReal) (W2 : (⟨2, ![64, 8]⟩ : Shape).Idx → EReal)
    (b2 : (⟨1, ![8]⟩ : Shape).Idx → EReal) : (⟨3, ![64, 8, 8177]⟩ : Shape).Idx → EReal :=
  shapeCast ⟨3, ![64, 8, 8177]⟩ (rows x W1 b1 W2 b2) casts

end Cert.ConvMlp

end
-- ==== Proof.PayAt.lean ====
/-
  The kernel body's value at one index.

  The body reads a slab of the padded signal, [64, 271] (256 window starts plus 15 further columns), and forms
  the matrix of windows: the sixteen column slices `x[:, k : k + 256]`, laid side by side as [64, 4096], re-read
  as [64, 16, 256], transposed to [64, 256, 16] and re-read as [16384, 16], so that row `b · 256 + w` holds
  `x[b, w + k]` at column `k` — the window of row `b` that starts at `w`. That matrix goes through the two dense
  layers (a product into the zero splat plus a broadcast row, with a hyperbolic tangent between them; the
  narrowing format changes are the identity on the extended reals), and the [16384, 8] result is re-read as
  [64, 256, 8]. So the body at (b, w, c) is the perceptron of the specification on that window, at channel `c`.
-/
import proofs.«155559_j34565896798381_2_alg».proof.Proof.Gen.KernelIdeal.Skeleton
import proofs.«155559_j34565896798381_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Idealize.ShloMosaic Idealize.ShloMosaic.ValueIdx Cert.KernelIdeal

/-! ## The two matrix products at an index -/

/-- Row `r`, column `h` of the product into the zero splat: the sum over the one contracted axis. -/
theorem mm1_apply (L : FVec Ideal S16384x16 .bf16) (R : FVec Ideal S16x64 .bf16) (r : Fin 16384) (h : Fin 64) :
    matmul dot_S16384x16_S16x64_S16384x64_1_0_0_1_n_n none L R (constant (F := Ideal) S16384x64 .f32 0x00000000#32) (ix2 r h)
      = ∑ k : Fin 16, L (ix2 r k) * R (ix2 k h) := by
  refine (Ideal.matmul_constant_zero_apply dot_S16384x16_S16x64_S16384x64_1_0_0_1_n_n none L R (ix2 r h)).trans ?_
  rw [← Equiv.sum_comp (contrEquiv1 dot_S16384x16_S16x64_S16384x64_1_0_0_1_n_n 16 rfl rfl).symm]
  refine Finset.sum_congr rfl fun k _ => ?_
  have hk := contrEquiv1_symm_val dot_S16384x16_S16x64_S16384x64_1_0_0_1_n_n 16 rfl rfl k
  have el : dot_S16384x16_S16x64_S16384x64_1_0_0_1_n_n.lhsIdx (ix2 r h) ((contrEquiv1 dot_S16384x16_S16x64_S16384x64_1_0_0_1_n_n 16 rfl rfl).symm k) = ix2 r k :=
    funext fun a => Fin.ext (by
      match a with
      | ⟨0, _⟩ =>
        show (dot_S16384x16_S16x64_S16384x64_1_0_0_1_n_n.lhsIdx (ix2 r h) _ 0).val = r.val
        unfold DotDims.lhsIdx
        rw [dif_neg (show ¬(0 : Fin S16384x16.rank) ∈ dot_S16384x16_S16x64_S16384x64_1_0_0_1_n_n.lhsBatch by decide),
          dif_pos (show (0 : Fin S16384x16.rank) ∈ dot_S16384x16_S16x64_S16384x64_1_0_0_1_n_n.lhsNonContracting by decide)]
        rfl
      | ⟨1, _⟩ => exact (dot_S16384x16_S16x64_S16384x64_1_0_0_1_n_n.lhsIdx_val_of_single rfl (ix2 r h) _).trans hk)
  have er : dot_S16384x16_S16x64_S16384x64_1_0_0_1_n_n.rhsIdx (ix2 r h) ((contrEquiv1 dot_S16384x16_S16x64_S16384x64_1_0_0_1_n_n 16 rfl rfl).symm k) = ix2 k h :=
    funext fun a => Fin.ext (by
      match a with
      | ⟨0, _⟩ => exact (dot_S16384x16_S16x64_S16384x64_1_0_0_1_n_n.rhsIdx_val_of_single rfl (ix2 r h) _).trans hk
      | ⟨1, _⟩ =>
        show (dot_S16384x16_S16x64_S16384x64_1_0_0_1_n_n.rhsIdx (ix2 r h) _ 1).val = h.val
        unfold DotDims.rhsIdx
        rw [dif_neg (show ¬(1 : Fin S16x64.rank) ∈ dot_S16384x16_S16x64_S16384x64_1_0_0_1_n_n.rhsBatch by decide),
          dif_pos (show (1 : Fin S16x64.rank) ∈ dot_S16384x16_S16x64_S16384x64_1_0_0_1_n_n.rhsNonContracting by decide)]
        rfl)
  rw [el, er]

/-- Row `r`, column `h` of the product into the zero splat: the sum over the one contracted axis. -/
theorem mm2_apply (L : FVec Ideal S16384x64 .bf16) (R : FVec Ideal S64x8 .bf16) (r : Fin 16384) (h : Fin 8) :
    matmul dot_S16384x64_S64x8_S16384x8_1_0_0_1_n_n none L R (constant (F := Ideal) S16384x8 .f32 0x00000000#32) (ix2 r h)
      = ∑ k : Fin 64, L (ix2 r k) * R (ix2 k h) := by
  refine (Ideal.matmul_constant_zero_apply dot_S16384x64_S64x8_S16384x8_1_0_0_1_n_n none L R (ix2 r h)).trans ?_
  rw [← Equiv.sum_comp (contrEquiv1 dot_S16384x64_S64x8_S16384x8_1_0_0_1_n_n 64 rfl rfl).symm]
  refine Finset.sum_congr rfl fun k _ => ?_
  have hk := contrEquiv1_symm_val dot_S16384x64_S64x8_S16384x8_1_0_0_1_n_n 64 rfl rfl k
  have el : dot_S16384x64_S64x8_S16384x8_1_0_0_1_n_n.lhsIdx (ix2 r h) ((contrEquiv1 dot_S16384x64_S64x8_S16384x8_1_0_0_1_n_n 64 rfl rfl).symm k) = ix2 r k :=
    funext fun a => Fin.ext (by
      match a with
      | ⟨0, _⟩ =>
        show (dot_S16384x64_S64x8_S16384x8_1_0_0_1_n_n.lhsIdx (ix2 r h) _ 0).val = r.val
        unfold DotDims.lhsIdx
        rw [dif_neg (show ¬(0 : Fin S16384x64.rank) ∈ dot_S16384x64_S64x8_S16384x8_1_0_0_1_n_n.lhsBatch by decide),
          dif_pos (show (0 : Fin S16384x64.rank) ∈ dot_S16384x64_S64x8_S16384x8_1_0_0_1_n_n.lhsNonContracting by decide)]
        rfl
      | ⟨1, _⟩ => exact (dot_S16384x64_S64x8_S16384x8_1_0_0_1_n_n.lhsIdx_val_of_single rfl (ix2 r h) _).trans hk)
  have er : dot_S16384x64_S64x8_S16384x8_1_0_0_1_n_n.rhsIdx (ix2 r h) ((contrEquiv1 dot_S16384x64_S64x8_S16384x8_1_0_0_1_n_n 64 rfl rfl).symm k) = ix2 k h :=
    funext fun a => Fin.ext (by
      match a with
      | ⟨0, _⟩ => exact (dot_S16384x64_S64x8_S16384x8_1_0_0_1_n_n.rhsIdx_val_of_single rfl (ix2 r h) _).trans hk
      | ⟨1, _⟩ =>
        show (dot_S16384x64_S64x8_S16384x8_1_0_0_1_n_n.rhsIdx (ix2 r h) _ 1).val = h.val
        unfold DotDims.rhsIdx
        rw [dif_neg (show ¬(1 : Fin S64x8.rank) ∈ dot_S16384x64_S64x8_S16384x8_1_0_0_1_n_n.rhsBatch by decide),
          dif_pos (show (1 : Fin S64x8.rank) ∈ dot_S16384x64_S64x8_S16384x8_1_0_0_1_n_n.rhsNonContracting by decide)]
        rfl)
  rw [el, er]

/-! ## The matrix of windows at an index -/

/-- Sixteen [64, 256] pieces laid side by side into [64, 4096]: column `k · 256 + w` of row `b` is piece `k` at
    column `w` of that row. -/
theorem cat_ofFn {α : Type} (f : Fin 16 → (S64x256.Idx → α)) (xs : List ((s : Shape) × (s.Idx → α)))
    (hxs : xs = List.ofFn fun n : Fin 16 => (⟨S64x256, f n⟩ : (s : Shape) × (s.Idx → α)))
    (h : Shape.Concatenates (xs.map (·.1)) S64x4096 1) (b : Fin 64) (w : Fin 256) (k : Fin 16) :
    concatenate S64x4096 1 xs h (ix2 b (⟨k.val * 256 + w.val, by omega⟩ : Fin 4096)) = f k (ix2 b w) := by
  subst hxs
  refine concatenate_ofFn_apply 1 f h rfl 256 rfl _ k ?_ (ix2 b w) ?_ ?_
  · show (k.val * 256 + w.val) / 256 = k.val
    omega
  · show w.val = (k.val * 256 + w.val) % 256
    omega
  · intro a ha
    match a with
    | ⟨0, _⟩ => rfl
    | ⟨1, _⟩ => exact absurd rfl ha

/-- Every start `k ≤ 15` leaves room for 256 columns in the slab's 271. -/
theorem slices_all : ∀ k : Fin 16, S64x271.Slices ![0, k.val] S64x256 := by decide

/-- The sixteen shifted column slices of the slab laid side by side: column `k · 256 + w` of row `b` is the slab's
    column `w + k` of that row, since piece `k` is the slice that starts at column `k`. -/
theorem cat_apply {α : Type} (x : S64x271.Idx → α) (b : Fin 64) (w : Fin 256) (k : Fin 16) :
    concatenate S64x4096 1
        [⟨S64x256, extractStridedSlice S64x256 ![0, 0] x Gen.slices_S64x271_o0_0_S64x256⟩,
          ⟨S64x256, extractStridedSlice S64x256 ![0, 1] x Gen.slices_S64x271_o0_1_S64x256⟩,
          ⟨S64x256, extractStridedSlice S64x256 ![0, 2] x Gen.slices_S64x271_o0_2_S64x256⟩,
          ⟨S64x256, extractStridedSlice S64x256 ![0, 3] x Gen.slices_S64x271_o0_3_S64x256⟩,
          ⟨S64x256, extractStridedSlice S64x256 ![0, 4] x Gen.slices_S64x271_o0_4_S64x256⟩,
          ⟨S64x256, extractStridedSlice S64x256 ![0, 5] x Gen.slices_S64x271_o0_5_S64x256⟩,
          ⟨S64x256, extractStridedSlice S64x256 ![0, 6] x Gen.slices_S64x271_o0_6_S64x256⟩,
          ⟨S64x256, extractStridedSlice S64x256 ![0, 7] x Gen.slices_S64x271_o0_7_S64x256⟩,
          ⟨S64x256, extractStridedSlice S64x256 ![0, 8] x Gen.slices_S64x271_o0_8_S64x256⟩,
          ⟨S64x256, extractStridedSlice S64x256 ![0, 9] x Gen.slices_S64x271_o0_9_S64x256⟩,
          ⟨S64x256, extractStridedSlice S64x256 ![0, 10] x Gen.slices_S64x271_o0_10_S64x256⟩,
          ⟨S64x256, extractStridedSlice S64x256 ![0, 11] x Gen.slices_S64x271_o0_11_S64x256⟩,
          ⟨S64x256, extractStridedSlice S64x256 ![0, 12] x Gen.slices_S64x271_o0_12_S64x256⟩,
          ⟨S64x256, extractStridedSlice S64x256 ![0, 13] x Gen.slices_S64x271_o0_13_S64x256⟩,
          ⟨S64x256, extractStridedSlice S64x256 ![0, 14] x Gen.slices_S64x271_o0_14_S64x256⟩,
          ⟨S64x256, extractStridedSlice S64x256 ![0, 15] x Gen.slices_S64x271_o0_15_S64x256⟩]
        Gen.concatenates_S64x256_S64x256_S64x256_S64x256_S64x256_S64x256_S64x256_S64x256_S64x256_S64x256_S64x256_S64x256_S64x256_S64x256_S64x256_S64x256_S64x4096_d1 (ix2 b (⟨k.val * 256 + w.val, by omega⟩ : Fin 4096))
      = x (ix2 b (⟨w.val + k.val, by omega⟩ : Fin 271)) := by
  refine (cat_ofFn (fun n => extractStridedSlice S64x256 ![0, n.val] x (slices_all n)) _ rfl _ b w k).trans ?_
  exact slice2_axis1_apply k.val x _ b w _ (Nat.add_comm _ _)

/-- The side-by-side slices re-read as [64, 16, 256], each [16, 256] block transposed, re-read as [16384, 16]: row
    `b · 256 + w`, column `k` is column `k · 256 + w` of row `b` — both re-readings keep the row-major position. -/
theorem rows_apply {α : Type} (y : S64x4096.Idx → α) (h1 : S64x4096.ShapeCasts S64x16x256)
    (h2 : S64x16x256.Transposes [0, 2, 1] S64x256x16) (h3 : S64x256x16.ShapeCasts S16384x16)
    (b : Fin 64) (w : Fin 256) (k : Fin 16) :
    shapeCast S16384x16 (transpose S64x256x16 [0, 2, 1] (shapeCast S64x16x256 y h1) h2) h3
        (ix2 (⟨b.val * 256 + w.val, by omega⟩ : Fin 16384) k)
      = y (ix2 b (⟨k.val * 256 + w.val, by omega⟩ : Fin 4096)) := by
  refine (shapeCast_apply _ h3 _ (ix3 b w k) ?_).trans ?_
  · rw [Shape.rowMajor_val_three, Shape.rowMajor_val_two]
    show (b.val * 256 + w.val) * 16 + k.val = (b.val * 256 + w.val) * 16 + k.val
    rfl
  refine (transpose_ix3_021_apply _ h2 b w k).trans ?_
  refine shapeCast_apply y h1 _ _ ?_
  rw [Shape.rowMajor_val_two, Shape.rowMajor_val_three]
  show b.val * 4096 + (k.val * 256 + w.val) = (b.val * 16 + k.val) * 256 + w.val
  omega

/-! ## The two dense layers on one row -/

/-- Row `r` of a [16384, 16] matrix through the two layers, at channel `c`: the perceptron on that row. The narrowing
    format changes and the re-reading of a bias row in its own shape are the identity; a bias row broadcast over the
    rows reads its one row. -/
theorem dense_apply (A : FVec Ideal S16384x16 .f32) (v26 : Vec Ideal S16x64 .f32) (v28 : Vec Ideal S1x64 .f32)
    (v35 : Vec Ideal S64x8 .f32) (v37 : Vec Ideal S1x8 .f32) (r : Fin 16384) (c : Fin 8) :
    addf
        (matmul dot_S16384x64_S64x8_S16384x8_1_0_0_1_n_n none
          (truncf .bf16
            (tanh
              (addf
                (matmul dot_S16384x16_S16x64_S16384x64_1_0_0_1_n_n none (truncf .bf16 A Gen.bitsLt_bf16_f32)
                  (truncf .bf16 v26 Gen.bitsLt_bf16_f32) (constant (F := Ideal) S16384x64 .f32 0x00000000#32))
                (broadcastTo S16384x64 (shapeCast S1x64 v28 Gen.shapeCasts_S1x64_S1x64) Gen.broadcasts_S1x64_S16384x64)))
            Gen.bitsLt_bf16_f32)
          (truncf .bf16 v35 Gen.bitsLt_bf16_f32) (constant (F := Ideal) S16384x8 .f32 0x00000000#32))
        (broadcastTo S16384x8 (shapeCast S1x8 v37 Gen.shapeCasts_S1x8_S1x8) Gen.broadcasts_S1x8_S16384x8) (ix2 r c)
      = Cert.ConvMlp.mlp (fun j : Fin 16 => A (ix2 r j)) v26 (fun h => v28 (ix2 (0 : Fin 1) h)) v35
          (fun c' => v37 (ix2 (0 : Fin 1) c')) c := by
  unfold Cert.ConvMlp.mlp
  rw [addf_apply]
  refine congrArg₂ (· + ·) ?_ ?_
  · refine (mm2_apply _ _ r c).trans (Finset.sum_congr rfl fun h _ => ?_)
    rw [truncf_apply, truncf_apply]
    refine congrArg (· * v35 (ix2 h c)) ?_
    show Ideal.tanh _ = Ideal.tanh _
    refine congrArg Ideal.tanh ?_
    rw [addf_apply]
    refine congrArg₂ (· + ·) ?_ ?_
    · exact mm1_apply _ _ r h
    · exact (broadcastTo_1b_ab_apply _ _ r h).trans (congrFun (shapeCast_self v28 _) _)
  · exact (broadcastTo_1b_ab_apply _ _ r c).trans (congrFun (shapeCast_self v37 _) _)

/-! ## The body at an index -/

/-- The body at (b, w, c): the perceptron on the window of row `b` of the slab that starts at column `w`, channel `c`. -/
theorem pay_apply (v3 : Vec Ideal S64x271 .f32) (v26 : Vec Ideal S16x64 .f32) (v28 : Vec Ideal S1x64 .f32)
    (v35 : Vec Ideal S64x8 .f32) (v37 : Vec Ideal S1x8 .f32) (b : Fin 64) (w : Fin 256) (c : Fin 8) :
    Cert.KernelIdeal.Gen.k0_pay1 (F := Ideal) v3 v26 v28 v35 v37 (ix3 b w c)
      = Cert.ConvMlp.mlp (fun j : Fin 16 => v3 (ix2 b (⟨w.val + j.val, by omega⟩ : Fin 271))) v26
          (fun h => v28 (ix2 (0 : Fin 1) h)) v35 (fun c' => v37 (ix2 (0 : Fin 1) c')) c := by
  unfold Gen.k0_pay1
  refine (shapeCast_apply _ Gen.shapeCasts_S16384x8_S64x256x8 (ix3 b w c)
    (ix2 (⟨b.val * 256 + w.val, by omega⟩ : Fin 16384) c) ?_).trans ?_
  · rw [Shape.rowMajor_val_two, Shape.rowMajor_val_three]
    show (b.val * 256 + w.val) * 8 + c.val = (b.val * 256 + w.val) * 8 + c.val
    rfl
  refine (dense_apply _ v26 v28 v35 v37 _ c).trans ?_
  refine congrArg (fun win : Fin 16 → EReal => Cert.ConvMlp.mlp win v26 (fun h => v28 (ix2 (0 : Fin 1) h)) v35
    (fun c' => v37 (ix2 (0 : Fin 1) c')) c) (funext fun j => ?_)
  refine (rows_apply _ _ _ _ b w j).trans ?_
  exact (cat_apply _ b w j).trans (congrFun (shapeCast_self v3 _) _)

end Cert.KernelIdeal.PayAt

end
-- ==== Proof.KernelValue.lean ====
/-
  The kernel program computes the specification.

  At grid point `t` the body's one store leaves in the output's staging block, at (row `b`, window position `w`,
  channel `k`), the perceptron of the sixteen samples `256·t + w … 256·t + w + 15` of row `b` of the PADDED signal
  (`block_eq`). What is written back is the part of the block inside the array [64, 8177, 8]: window starts
  `256·t + w < 8177`, whose sixteen samples all lie below column 8192, where the padded signal is the signal. So
  every point writes back its block of ONE array, `rowsOf` (`flushed_eq`); the 32 blocks, the last cut to 241
  window positions, cover the array (`cover`), which therefore ends holding `rowsOf` (`final`). The host's reshape
  after the region re-reads it in the shape [64, 8, 8177] (`tail_v4`).
-/
import proofs.«155559_j34565896798381_2_alg».proof.Proof.BodyValue
import proofs.«155559_j34565896798381_2_alg».proof.Proof.Inputs
import proofs.«155559_j34565896798381_2_alg».proof.Proof.Spec
import proofs.«155559_j34565896798381_2_alg».proof.Proof.PayAt
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.BodyValue Cert.KernelIdeal.Inputs

/-! ## One grid step's block, element by element -/

/-- The slab the body loads, read at (row, column): the padded signal at column `off + k`, where `off` is the
    load's column offset. -/
theorem slab_apply (i : grid0.Coords) (x0 : Vec Ideal S64x8207 .f32) (b : Fin 64) (k : Fin 271) (off : Nat)
    (h0 : k0_off1 i (0 : Fin 2) = 0) (h1 : k0_off1 i (1 : Fin 2) = off) (hoff : off + 271 ≤ 8207) :
    slab i x0 (ix2 b k) = x0 (ix2 b (⟨off + k.val, by omega⟩ : Fin 8207)) := by
  unfold slab
  refine congrArg x0 (funext fun a => Fin.ext ?_)
  rw [Rect.emb_apply]
  match a with
  | ⟨0, _⟩ => show k0_off1 i (0 : Fin 2) + 1 * b.val = b.val; rw [h0]; omega
  | ⟨1, _⟩ => show k0_off1 i (1 : Fin 2) + 1 * k.val = off + k.val; rw [h1]; omega

/-- The block stored at grid point `tv` holds, at (row `b`, window position `w`, channel `k`), the perceptron of the
    window of the signal that starts at sample `256·tv + w` — for every window position whose window lies inside
    the signal (`256·tv + w < 8177`): there the padded signal is the signal, and the one-row biases are the biases. -/
theorem block_eq (i : grid0.Coords) (tv : Nat) (h0 : k0_off1 i (0 : Fin 2) = 0) (h1 : k0_off1 i (1 : Fin 2) = 256 * tv)
    (X0 : Vec Ideal S64x8207 .f32) (W1 : Vec Ideal S16x64 .f32) (X2 : Vec Ideal S1x64 .f32) (W2 : Vec Ideal S64x8 .f32) (X4 : Vec Ideal S1x8 .f32)
    (x : (⟨2, ![64, 8192]⟩ : Shape).Idx → EReal) (b1 : (⟨1, ![64]⟩ : Shape).Idx → EReal) (b2 : (⟨1, ![8]⟩ : Shape).Idx → EReal)
    (hX0 : ∀ (b : Fin 64) (n : Fin 8207) (hn : n.val < 8192), X0 (ix2 b n) = x (ix2 b (⟨n.val, hn⟩ : Fin 8192)))
    (hX2 : ∀ h : Fin 64, X2 (ix2 (0 : Fin 1) h) = b1 (ix1 h)) (hX4 : ∀ k : Fin 8, X4 (ix2 (0 : Fin 1) k) = b2 (ix1 k))
    (b : Fin 64) (w : Fin 256) (hw : 256 * tv + w.val < 8177) (k : Fin 8) :
    k0_pay1 (F := Ideal) (slab i X0) W1 X2 W2 X4 (ix3 b w k)
      = Cert.ConvMlp.rows x W1 b1 W2 b2 (ix3 b (⟨256 * tv + w.val, hw⟩ : Fin 8177) k) := by
  refine (PayAt.pay_apply (slab i X0) W1 X2 W2 X4 b w k).trans ?_
  rw [Cert.ConvMlp.rows_apply]
  unfold Cert.ConvMlp.elt
  have hwin : (fun j : Fin 16 => slab i X0 (ix2 b (⟨w.val + j.val, by omega⟩ : Fin 271)))
      = Cert.ConvMlp.window x b (⟨256 * tv + w.val, hw⟩ : Fin 8177) := funext fun j => by
    rw [slab_apply i X0 b _ (256 * tv) h0 h1 (by omega), hX0 b _ (by show 256 * tv + (w.val + j.val) < 8192; omega)]
    unfold Cert.ConvMlp.window
    exact congrArg x (congrArg (ix2 b) (Fin.ext (by show 256 * tv + (w.val + j.val) = 256 * tv + w.val + j.val; omega)))
  have hb1 : (fun h : Fin 64 => X2 (ix2 (0 : Fin 1) h)) = fun h => b1 (ix1 h) := funext hX2
  have hb2 : (fun k' : Fin 8 => X4 (ix2 (0 : Fin 1) k')) = fun k' => b2 (ix1 k') := funext hX4
  rw [hwin, hb1, hb2]

/-! ## The output array after the region -/

variable (m : (ℓ : Loc nD τ sig) → Buf (Elt Ideal) ℓ) (ρ : Dev nD → PrngReg)

/-- The array [64, 8177, 8] of all windows' perceptrons of the launch arguments. -/
abbrev rowsOf (c : Dev nD) : Buf (Elt Ideal) ((c : Thread nD τ).loc main_v3) :=
  Cert.ConvMlp.rows (m ((c : Thread nD τ).loc main_arg0)) (m ((c : Thread nD τ).loc main_arg1)) (m ((c : Thread nD τ).loc main_arg2))
    (m ((c : Thread nD τ).loc main_arg3)) (m ((c : Thread nD τ).loc main_arg4))

/-- What grid point `t` writes back — the part of its block inside the array: window positions `256·t … ` below
    8177 — is that part of `rowsOf`. -/
theorem flushed_eq (c : Dev nD) (t : Fin cfg0.N) :
    (dats m 0 c).flushed 5 t = ((cfg0.win 5).blk t).view.read (Elt Ideal) (rowsOf m c) := by
  obtain ⟨-, -, -, -, -, -, -, -, -, -, i0, i1, i2, o0, o1, s0, s1, s2⟩ := idx_facts t
  have hN : t.val < 32 := lt_of_lt_of_eq (show t.val < grid0.N from t.isLt) N_0
  show (cfg0.win 5).cut (grid0.coords t) ((dats m 0 c).after 5 t) = _
  rw [after0_5]
  unfold outsAt0
  rw [out_eq, iblk0, iblk1, iblk2, iblk3, iblk4]
  funext y
  have hy0 : (y 0).val < 64 := lt_of_lt_of_eq (show (y 0).val < win0_5.xsize (grid0.coords t) (0 : Fin 3) from (y 0).isLt) s0
  have hy1 : (y 1).val < min 256 (8177 - 256 * t.val) := lt_of_lt_of_eq (show (y 1).val < win0_5.xsize (grid0.coords t) (1 : Fin 3) from (y 1).isLt) s1
  have hy2 : (y 2).val < 8 := lt_of_lt_of_eq (show (y 2).val < win0_5.xsize (grid0.coords t) (2 : Fin 3) from (y 2).isLt) s2
  rw [View.read_apply]
  have ex : win0_5.xinj (grid0.coords t) y
      = ix3 (⟨(y 0).val, hy0⟩ : Fin 64) (⟨(y 1).val, by omega⟩ : Fin 256) (⟨(y 2).val, hy2⟩ : Fin 8) :=
    funext fun a => Fin.ext (match a with | ⟨0, _⟩ => rfl | ⟨1, _⟩ => rfl | ⟨2, _⟩ => rfl)
  have ee : ((cfg0.win 5).blk t).view.emb y
      = ix3 (⟨(y 0).val, hy0⟩ : Fin 64) (⟨256 * t.val + (y 1).val, by omega⟩ : Fin 8177) (⟨(y 2).val, hy2⟩ : Fin 8) :=
    funext fun a => Fin.ext (match a with
      | ⟨0, _⟩ => by show win0_5.index t (0 : Fin 3) * 64 + 1 * (y 0).val = (y 0).val; rw [i0]; omega
      | ⟨1, _⟩ => by show win0_5.index t (1 : Fin 3) * 256 + 1 * (y 1).val = 256 * t.val + (y 1).val; rw [i1]; omega
      | ⟨2, _⟩ => by show win0_5.index t (2 : Fin 3) * 8 + 1 * (y 2).val = (y 2).val; rw [i2]; omega)
  show k0_pay1 (F := Ideal) (slab (grid0.coords t) (V m c main_v0)) (m ((c : Thread nD τ).loc main_arg1)) (V m c main_v1)
      (m ((c : Thread nD τ).loc main_arg3)) (V m c main_v2) (win0_5.xinj (grid0.coords t) y)
    = rowsOf m c (((cfg0.win 5).blk t).view.emb y)
  rw [ex, ee]
  exact block_eq (grid0.coords t) t.val o0 o1 (V m c main_v0) (m ((c : Thread nD τ).loc main_arg1)) (V m c main_v1)
    (m ((c : Thread nD τ).loc main_arg3)) (V m c main_v2) (m ((c : Thread nD τ).loc main_arg0)) (m ((c : Thread nD τ).loc main_arg2))
    (m ((c : Thread nD τ).loc main_arg4)) (V_v0_apply m c) (V_v1_apply m c) (V_v2_apply m c)
    (⟨(y 0).val, hy0⟩ : Fin 64) (⟨(y 1).val, by omega⟩ : Fin 256) (by show 256 * t.val + (y 1).val < 8177; omega) (⟨(y 2).val, hy2⟩ : Fin 8)

/-- An index of the array is in point `t`'s block iff each coordinate is in the block's range on its axis, the block
    cut at the array's end. -/
theorem mem_blk (t : Fin cfg0.N) (i : S64x8177x8.Idx) :
    i ∈ ((cfg0.win 5).blk t).view.set ↔ ∀ a : Fin 3, win0_5.index t a * S64x256x8.size a ≤ (i a).val
      ∧ (i a).val < win0_5.index t a * S64x256x8.size a + win0_5.xsize (grid0.coords t) a := by
  show i ∈ ((View.whole main_v3).slice (win0_5.rect t)).set ↔ _
  rw [View.set_slice_whole, Rect.mem_set_unit]
  exact Iff.rfl

/-- Every index of the array is in some point's block: window position `n` in that of point `n / 256` (the last
    point's block, cut to 241 positions, ends exactly at the array's end). -/
theorem cover (i : S64x8177x8.Idx) : ∃ t : Fin cfg0.N, (cfg0.win 5).flush t = true ∧ i ∈ ((cfg0.win 5).blk t).view.set := by
  have h0 : (i 0).val < 64 := (i 0).isLt
  have h1 : (i 1).val < 8177 := (i 1).isLt
  have h2 : (i 2).val < 8 := (i 2).isLt
  have hN : cfg0.N = 32 := N_0
  obtain ⟨t, ht⟩ : ∃ t : Fin cfg0.N, t.val = (i 1).val / 256 := ⟨⟨(i 1).val / 256, by rw [hN]; omega⟩, rfl⟩
  obtain ⟨-, -, -, -, -, -, -, -, -, -, i0, i1, i2, -, -, s0, s1, s2⟩ := idx_facts t
  refine ⟨t, flush0_5 t, ?_⟩
  rw [mem_blk]
  intro a
  match a with
  | ⟨0, _⟩ =>
    show win0_5.index t (0 : Fin 3) * 64 ≤ (i 0).val ∧ (i 0).val < win0_5.index t (0 : Fin 3) * 64 + win0_5.xsize (grid0.coords t) (0 : Fin 3)
    rw [i0, s0]; omega
  | ⟨1, _⟩ =>
    show win0_5.index t (1 : Fin 3) * 256 ≤ (i 1).val ∧ (i 1).val < win0_5.index t (1 : Fin 3) * 256 + win0_5.xsize (grid0.coords t) (1 : Fin 3)
    rw [i1, s1, ht]; omega
  | ⟨2, _⟩ =>
    show win0_5.index t (2 : Fin 3) * 8 ≤ (i 2).val ∧ (i 2).val < win0_5.index t (2 : Fin 3) * 8 + win0_5.xsize (grid0.coords t) (2 : Fin 3)
    rw [i2, s2]; omega

/-- So the output array ends holding `rowsOf`. -/
theorem final (c : Dev nD) : (dats m 0 c).arrAt 5 cfg0.N = rowsOf m c :=
  (dats m 0 c).arrAt_eq_of_cover 5 (rowsOf m c) (fun t _ => flushed_eq m c t) cover

/-! ## After the region: the host's reshape, and the run -/

/-- The host's reshape after the region re-reads the output array, in row-major order, in the shape [64, 8, 8177]. -/
theorem tail_v4 (c : Dev nD) :
    Pipeline.afterTail₀ cfgs (dats m) 0 (V0 m) [hostOps1] c main_v4
      = Cert.ConvMlp.result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v4) = _
  after_results
  show shapeCast S64x8x8177 (Pipeline.withArrays (cfgs 0).spec c (V0 m c) (fun w => (dats m 0 c).arrAt w (cfgs 0).N)
    (Proc.devRef .tc main_v3)) shapeCasts_S64x8177x8_S64x8x8177 = _
  have e : Pipeline.withArrays (cfgs 0).spec c (V0 m c) (fun w => (dats m 0 c).arrAt w (cfgs 0).N) (Proc.devRef .tc main_v3)
      = rowsOf m c := (Pipeline.withArrays_arr spec0 launch0.win.arr_inj c _ _ 5).trans (final m c)
  exact congrArg (fun X : S64x8177x8.Idx → EReal => shapeCast S64x8x8177 X shapeCasts_S64x8177x8_S64x8x8177) e

/-- The kernel's run, read: every weakly fair execution ends with the result at `Cert.ConvMlp.result` of the launch
    arguments, and the arguments unchanged. -/
theorem run : θ_run defs (onTc (τ := τ) (main (F := Ideal))) ⟨m, fun _ => 0, ρ⟩ fun r => ∀ c : Dev nD,
      r.2.mem ((c : Thread nD τ).loc main_v4)
        = Cert.ConvMlp.result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference program computes the specification.

  The reference builds the window indices `idx[w, j] = w + j` as 32-bit words, wraps negative ones by adding 8192
  (none is negative: `w + j ≤ 8191`), and gathers `x[:, idx]` into an array [64, 8177, 16] whose element
  `(b, w, j)` is sample `w + j` of signal row `b` (`gather_at`: the one stage read here by hand, coordinate by
  coordinate of the operand index; the start word is `start_word`). Reshaped to [523328, 16], row `r` is window
  `r % 8177` of signal row `r / 8177` (`v14_at`); the two contractions, the two bias additions and the activation
  then give, at `(r, c)`, the perceptron of that window at channel `c` (`v18_at`, `row_at`). The final reshape
  [523328, 8] → [64, 8, 8177] keeps row-major positions, as does the specification's re-reading of
  `rows` : [64, 8177, 8] in the shape [64, 8, 8177]; position `n` is row `n / 8`, column `n % 8` of the first and
  `(n / 8 / 8177, n / 8 % 8177, n % 8)` of the second (`result_eq`).
-/
import proofs.«155559_j34565896798381_2_alg».proof.Proof.Gen.ReferenceIdeal.Read
import proofs.«155559_j34565896798381_2_alg».proof.Proof.Spec

noncomputable section

open scoped BigOperators

namespace Cert.ReferenceIdeal.RefValue

open Idealize.ShloMosaic Idealize.ShloMosaic.ValueIdx Cert.ReferenceIdeal Cert.ReferenceIdeal.Read

/-- A natural number below 8192, as a 32-bit word read signed, is itself. -/
theorem toInt_small (n : Nat) (hn : n < 8192) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- Such a word is not negative. -/
theorem not_neg (n : Nat) (hn : n < 8192) : IntOp.cmpi .slt (BitVec.ofNat 32 n) 0#32 = 0#1 := by
  unfold IntOp.cmpi
  show BitVec.ofBool ((BitVec.ofNat 32 n).slt 0#32) = 0#1
  have : (BitVec.ofNat 32 n).slt 0#32 = false := by
    rw [BitVec.slt_eq_decide, BitVec.toInt_zero, toInt_small n hn]
    exact decide_eq_false (by omega)
  rw [this]; rfl

/-- The start word of window `w` at offset `j`: `w + j`, which the wrap of negative indices leaves alone. -/
theorem start_word (w : Fin 8177) (j : Fin 16) :
    val_main_v12 (F := Ideal) (ix3 w j (0 : Fin 1)) = BitVec.ofNat 32 (w.val + j.val) := by
  rw [val_main_v12_apply, val_main_v11_apply, val_main_v8_apply, val_main_v7_apply, val_main_c_apply, val_main_v6_apply,
    val_main_v4_apply, val_main_v5_apply, val_main_v1_apply, val_main_v3_apply, val_main_v0_apply, val_main_v2_apply]
  show Scalar.select (IntOp.cmpi .slt (IntOp.addi (BitVec.ofNat 32 w.val) (BitVec.ofNat 32 j.val)) 0#32) _
    (IntOp.addi (BitVec.ofNat 32 w.val) (BitVec.ofNat 32 j.val)) = _
  have e : IntOp.addi (BitVec.ofNat 32 w.val) (BitVec.ofNat 32 j.val) = BitVec.ofNat 32 (w.val + j.val) :=
    BitVec.ofNat_add_ofNat _ _
  rw [e, not_neg _ (by omega), select_zero]

/-- The dimension numbers of the window gather: operand [64, 8192], start indices [8177, 16, 1], result [64, 8177, 16];
    operand axis 0 is copied whole (offset axis 0 of the result), operand axis 1 is indexed by the start word. -/
private abbrev gd : GatherDims S64x8192 S8177x16x1 S64x8177x16 :=
  gather_S64x8192_S8177x16x1_S64x8177x16_0_1_n_n_1_2_641

/-- THE GATHER READ AT `(b, w, j)`: sample `w + j` of row `b`. On the row axis the operand index is the result's offset
    coordinate `b`; on the sample axis it is the start word `w + j`, read signed and clamped into `[0, 8191]`, where it
    already lies. -/
theorem gather_at (x0 : (⟨S64x8192, .f32⟩ : BufTy).Contents (Elt Ideal)) (b : Fin 64) (w : Fin 8177) (j : Fin 16) :
    val_main_v13 (F := Ideal) x0 (ix3 b w j) = x0 (ix2 b (⟨w.val + j.val, by omega⟩ : Fin 8192)) := by
  unfold val_main_v13 Host.gather
  congr 1
  funext a
  refine Fin.ext ?_
  match a with
  | ⟨0, _⟩ =>
    show gd.start (ix3 b w j) val_main_v12 0 + gd.batchCoord (ix3 b w j) 0 + gd.offCoord (ix3 b w j) 0 = b.val
    rw [GatherDims.batchCoord_eq_zero _ _ _ List.not_mem_nil]
    unfold GatherDims.start
    rw [dif_neg (show ¬ (0 : Fin 2) ∈ gd.startIndexMap by decide)]
    unfold GatherDims.offCoord
    rw [dif_pos (show (0 : Fin 2) ∈ gd.sKept by decide)]
    simp only [Nat.zero_add]
    rfl
  | ⟨1, _⟩ =>
    show gd.start (ix3 b w j) val_main_v12 1 + gd.batchCoord (ix3 b w j) 1 + gd.offCoord (ix3 b w j) 1 = w.val + j.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx (ix3 b w j) ⟨List.idxOf (1 : Fin 2) gd.startIndexMap,
        List.idxOf_lt_length_iff.2 (List.mem_singleton.mpr rfl)⟩ = ix3 w j (0 : Fin 1) := by
      funext c; refine Fin.ext ?_
      match c with
      | ⟨0, _⟩ => rfl
      | ⟨1, _⟩ => rfl
      | ⟨2, _⟩ => rfl
    rw [hsi, start_word, toInt_small _ (by omega), Int.toNat_natCast]
    show min (w.val + j.val) (8192 - 1) = w.val + j.val
    omega

/-- Row `r` of the reshaped windows array [523328, 16] is window `r % 8177` of signal row `r / 8177`. -/
theorem v14_at (x0 : (⟨S64x8192, .f32⟩ : BufTy).Contents (Elt Ideal)) (r : Fin 523328) (j : Fin 16) :
    val_main_v14 (F := Ideal) x0 (ix2 r j)
      = x0 (ix2 (⟨r.val / 8177, by omega⟩ : Fin 64) (⟨r.val % 8177 + j.val, by omega⟩ : Fin 8192)) := by
  have e : idx_main_v14 (ix2 r j)
      = ix3 (⟨r.val / 8177, by omega⟩ : Fin 64) (⟨r.val % 8177, Nat.mod_lt _ (by decide)⟩ : Fin 8177) j :=
    funext fun a => Fin.ext (by
      match a with
      | ⟨0, _⟩ => show (r.val * 16 + j.val) / 130832 = r.val / 8177; omega
      | ⟨1, _⟩ => show (r.val * 16 + j.val) / 16 % 8177 = r.val % 8177; omega
      | ⟨2, _⟩ => show (r.val * 16 + j.val) % 16 = j.val; omega)
  rw [val_main_v14_apply, e, gather_at]

/-- The hidden layer before the activation, at row `r` and hidden unit `h`. -/
theorem v18_at (x0 : (⟨S64x8192, .f32⟩ : BufTy).Contents (Elt Ideal)) (x1 : (⟨S16x64, .f32⟩ : BufTy).Contents (Elt Ideal)) (x2 : (⟨S64, .f32⟩ : BufTy).Contents (Elt Ideal)) (r : Fin 523328) (h : Fin 64) :
    val_main_v18 (F := Ideal) x0 x1 x2 (ix2 r h)
      = (∑ j : Fin 16, Cert.ConvMlp.window x0 (⟨r.val / 8177, by omega⟩ : Fin 64) (⟨r.val % 8177, Nat.mod_lt _ (by decide)⟩ : Fin 8177) j
          * x1 (ix2 j h)) + x2 (ix1 h) := by
  have el : ∀ k : Fin 16, lidx_main_v15 (ix2 r h) k = ix2 r k := fun k =>
    funext fun a => Fin.ext (by match a with | ⟨0, _⟩ => rfl | ⟨1, _⟩ => rfl)
  have er : ∀ k : Fin 16, ridx_main_v15 (ix2 r h) k = ix2 k h := fun k =>
    funext fun a => Fin.ext (by match a with | ⟨0, _⟩ => rfl | ⟨1, _⟩ => rfl)
  have eb : idx_main_v16 (idx_main_v17 (ix2 r h)) = ix1 h :=
    funext fun a => Fin.ext (by match a with | ⟨0, _⟩ => rfl)
  rw [val_main_v18_apply, val_main_v15_apply, val_main_v17_apply, val_main_v16_apply, eb]
  simp only [el, er, v14_at]
  rfl

/-- THE PERCEPTRON ROW: element `(r, c)` of the array [523328, 8] before the final reshape. -/
theorem row_at (x0 : (⟨S64x8192, .f32⟩ : BufTy).Contents (Elt Ideal)) (x1 : (⟨S16x64, .f32⟩ : BufTy).Contents (Elt Ideal)) (x2 : (⟨S64, .f32⟩ : BufTy).Contents (Elt Ideal)) (x3 : (⟨S64x8, .f32⟩ : BufTy).Contents (Elt Ideal)) (x4 : (⟨S8, .f32⟩ : BufTy).Contents (Elt Ideal)) (r : Fin 523328) (c : Fin 8) :
    val_main_v23 (F := Ideal) x0 x1 x2 x3 x4 (ix2 r c)
      = Cert.ConvMlp.mlp (Cert.ConvMlp.window x0 (⟨r.val / 8177, by omega⟩ : Fin 64) (⟨r.val % 8177, Nat.mod_lt _ (by decide)⟩ : Fin 8177))
          x1 (fun h => x2 (ix1 h)) x3 (fun c => x4 (ix1 c)) c := by
  have el : ∀ k : Fin 64, lidx_main_v20 (ix2 r c) k = ix2 r k := fun k =>
    funext fun a => Fin.ext (by match a with | ⟨0, _⟩ => rfl | ⟨1, _⟩ => rfl)
  have er : ∀ k : Fin 64, ridx_main_v20 (ix2 r c) k = ix2 k c := fun k =>
    funext fun a => Fin.ext (by match a with | ⟨0, _⟩ => rfl | ⟨1, _⟩ => rfl)
  have eb : idx_main_v21 (idx_main_v22 (ix2 r c)) = ix1 c :=
    funext fun a => Fin.ext (by match a with | ⟨0, _⟩ => rfl)
  rw [val_main_v23_apply, val_main_v20_apply, val_main_v22_apply, val_main_v21_apply, eb]
  simp only [el, er, val_main_v19_apply, v18_at]
  rfl

/-- THE REFERENCE IS THE SPECIFICATION. Element `(b, c, w)` of the result sits at row-major position
    `n = (b·8 + c)·8177 + w`; in the array [523328, 8] that is row `n / 8`, column `n % 8`, and in `rows`
    ([64, 8177, 8]) it is signal row `n / 8 / 8177`, window `n / 8 % 8177`, channel `n % 8`: the same perceptron value. -/
theorem result_eq (x0 : (⟨S64x8192, .f32⟩ : BufTy).Contents (Elt Ideal)) (x1 : (⟨S16x64, .f32⟩ : BufTy).Contents (Elt Ideal)) (x2 : (⟨S64, .f32⟩ : BufTy).Contents (Elt Ideal)) (x3 : (⟨S64x8, .f32⟩ : BufTy).Contents (Elt Ideal)) (x4 : (⟨S8, .f32⟩ : BufTy).Contents (Elt Ideal)) :
    Cert.ReferenceIdeal.Read.val_main_v24 (F := Ideal) x0 x1 x2 x3 x4 = Cert.ConvMlp.result x0 x1 x2 x3 x4 := by
  funext i
  obtain ⟨b, c, w, rfl⟩ : ∃ (b : Fin 64) (c : Fin 8) (w : Fin 8177), i = ix3 b c w := ⟨i 0, i 1, i 2, eq_ix3 i⟩
  have hn : ((b.val * 8 + c.val) * 8177 + w.val) / 8 < 523328 := by omega
  have e : idx_main_v24 (ix3 b c w)
      = ix2 (⟨((b.val * 8 + c.val) * 8177 + w.val) / 8, hn⟩ : Fin 523328)
          (⟨((b.val * 8 + c.val) * 8177 + w.val) % 8, Nat.mod_lt _ (by decide)⟩ : Fin 8) :=
    funext fun a => Fin.ext (by match a with | ⟨0, _⟩ => rfl | ⟨1, _⟩ => rfl)
  rw [val_main_v24_apply, e, row_at]
  unfold Cert.ConvMlp.result
  rw [shapeCast_apply (Cert.ConvMlp.rows x0 x1 x2 x3 x4) Cert.ConvMlp.casts (ix3 b c w)
    (ix3 (⟨((b.val * 8 + c.val) * 8177 + w.val) / 8 / 8177, by omega⟩ : Fin 64)
      (⟨((b.val * 8 + c.val) * 8177 + w.val) / 8 % 8177, Nat.mod_lt _ (by decide)⟩ : Fin 8177)
      (⟨((b.val * 8 + c.val) * 8177 + w.val) % 8, Nat.mod_lt _ (by decide)⟩ : Fin 8))
    (by
      rewrite [Shape.rowMajor_val_three, Shape.rowMajor_val_three]
      show ((((b.val * 8 + c.val) * 8177 + w.val) / 8 / 8177) * 8177 + ((b.val * 8 + c.val) * 8177 + w.val) / 8 % 8177) * 8
          + ((b.val * 8 + c.val) * 8177 + w.val) % 8 = (b.val * 8 + c.val) * 8177 + w.val
      omega),
    Cert.ConvMlp.rows_apply]
  rfl

end Cert.ReferenceIdeal.RefValue
end
-- ==== Proof.lean ====
/-
  A sliding-window perceptron, two ways.

  The reference gathers every window of sixteen consecutive samples of each of the 64 signal rows (8177 windows a
  row), and applies to each window a two-layer perceptron, `tanh (win · W1 + b1) · W2 + b2`; the [523328, 8]
  result is re-read, in row-major order, in the shape [64, 8, 8177]. The kernel pads the signal with fifteen
  columns, walks the 8177 window starts in 32 tiles of 256, builds each tile's windows from sixteen shifted
  column slices of one slab of the padded signal, applies the same two layers on the matrix unit, and writes the
  [64, 8177, 8] array tile by tile — the last tile cut at the array's end —, which the host then re-reads as
  [64, 8, 8177]. On the extended reals both are the function `Cert.ConvMlp.result` of the arguments: the same
  finite sums of the same products, so the comparison uses no finiteness of the inputs. The windows the cut
  discards are the only ones that would have read the padding.

  The three frames are the generated frame runs (the reference's is its generated run with the result dropped);
  the idealization rewrote nothing, so `preserves` is `True`; `algebraic` puts the kernel's run
  (`Cert.KernelIdeal.KernelValue.run`) beside the reference's (`Cert.ReferenceIdeal.Value.run` and
  `Cert.ReferenceIdeal.RefValue.result_eq`) at arguments that agree.
-/
import proofs.«155559_j34565896798381_2_alg».proof.Defs
import proofs.«155559_j34565896798381_2_alg».proof.Proof.Gen.Kernel
import proofs.«155559_j34565896798381_2_alg».proof.Proof.Gen.Kernel.Frame
import proofs.«155559_j34565896798381_2_alg».proof.Proof.Gen.KernelIdeal
import proofs.«155559_j34565896798381_2_alg».proof.Proof.Gen.KernelIdeal.Frame
import proofs.«155559_j34565896798381_2_alg».proof.Proof.Gen.ReferenceIdeal
import proofs.«155559_j34565896798381_2_alg».proof.Proof.Gen.ReferenceIdeal.Run
import proofs.«155559_j34565896798381_2_alg».proof.Proof.Gen.ReferenceIdeal.Read
import proofs.«155559_j34565896798381_2_alg».proof.Proof.Gen.Pre_finite_inputs
import proofs.«155559_j34565896798381_2_alg».proof.Proof.KernelValue
import proofs.«155559_j34565896798381_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the five arguments, end with the result array at
    `Cert.ConvMlp.result` of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v24_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
